-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S128x64 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000x64 : Shape := ⟨2, ![50000, 64]⟩
abbrev S10000x128 : Shape := ⟨2, ![10000, 128]⟩
abbrev S10000x64 : Shape := ⟨2, ![10000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 63
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  dot_S10000x128_S128x64_S10000x64_1_0_0_1_n_n_wf : DotDims.WF S10000x128 S128x64 S10000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000x64 : Shape := ⟨2, ![50000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's whole run, with its RESULT named.

  @main is five segments: the matmul region, three stretches of host operations, the bias + log-softmax region. The buffer
  contents at each boundary are a fold from the launch memory (`W0 … W5` of the generated frame module). Every weakly fair
  execution terminates, nothing faults, and the final state holds every unscoped buffer at the last boundary's contents: so
  the result buffer holds `W5` there, and the four arguments end as launched. This is the run the frame claim rests on, with
  one more buffer read off the final state.
-/
import proofs.«141630_j16724602651053_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's contents
    and the argument arrays as launched. -/
theorem run_result : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whole

end
-- ==== Proof.MatmulBody.lean ====
/-
  What the first kernel's body stores, read at one entry of its [10000, 64] block.

  The body multiplies a [10000, 128] block by the whole [128, 64] weight into a zero accumulator (the change of float format
  on the way in is the identity on extended reals). At (p, q) that is the sum, over the 128 contracted coordinates k, of the
  block at (p, k) times the weight at (k, q): the matrix unit's contraction index has one axis, re-indexed by its coordinate.
-/
import proofs.«141630_j16724602651053_1_alg».proof.Proof.Gen.KernelIdeal.Skeleton
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

theorem lhs_row (i : S10000x64.Idx) (r : dot_S10000x128_S128x64_S10000x64_1_0_0_1_n_n.contr.Idx) : (dot_S10000x128_S128x64_S10000x64_1_0_0_1_n_n.lhsIdx i r 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl

theorem rhs_col (i : S10000x64.Idx) (r : dot_S10000x128_S128x64_S10000x64_1_0_0_1_n_n.contr.Idx) : (dot_S10000x128_S128x64_S10000x64_1_0_0_1_n_n.rhsIdx i r 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- THE PAYLOAD AT AN ENTRY: row p of the block against column q of the weight. -/
theorem pay_matmul (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_row _ _
    | ⟨1, _⟩ => exact (dot_S10000x128_S128x64_S10000x64_1_0_0_1_n_n.lhsIdx_val_of_single rfl (ix2 p q) _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl (ix2 p q) _).trans hk
    | ⟨1, _⟩ => exact rhs_col _ _)
  rw [el, er]
  rfl

end Cert.KernelIdeal.Body

end
-- ==== Proof.Spec.lean ====
/-
  The mathematics of the result, with no program in sight.

  A graph layer ends with a row-wise log-softmax of `v + b`: for a row `u : Fin 64 → EReal` (one node's 64 biased scores)
    top u      = the maximum of −∞ and the 64 entries,
    rowLsm u q = (u q − top u) − log (∑ k, exp (u k − top u)).
  `biasLsm v b` applies it to every row of a [50000, 64] array `v` after adding the bias row `b`; `matProd x w` is the
  [50000, 128] × [128, 64] product as a plain sum over the 128 contracted coordinates. Both are stated index by index over
  literal shapes, with their values at an index written by coordinates (`_ix2`). One order fact: taking the maximum with −∞
  once more changes nothing (`max_bottom_rowTop`); one of the two programs does that.
-/
import Idealize.ShloMosaic.PureOps.Ideal
import Idealize.ShloMosaic.Lib.ValueIdx

noncomputable section

namespace Cert.Gcn

open Idealize.ShloMosaic Idealize.ShloMosaic.ValueIdx

/-- −∞, as the f32 word both programs start their row maximum from. -/
abbrev bottom : EReal := Ideal.ofBits .f32 0xFF800000#32

/-- A row's maximum, started from −∞. -/
def rowTop (u : Fin 64 → EReal) : EReal := (Finset.univ : Finset (Fin 64)).fold max bottom u

/-- The log-softmax of a row at lane `q`: shift by the row's maximum, then subtract the log of the sum of the exponentials
    of the shifted row. -/
def rowLsm (u : Fin 64 → EReal) (q : Fin 64) : EReal :=
  (u q - rowTop u) - Ideal.log (∑ k : Fin 64, Ideal.exp (u k - rowTop u))

/-- The starting value is below the fold, so a further maximum with it is absorbed. -/
theorem max_bottom_rowTop (u : Fin 64 → EReal) : max bottom (rowTop u) = rowTop u :=
  max_eq_right ((Finset.le_fold_max _).mpr (Or.inl le_rfl))

/-- A [50000, 64] array of extended reals. -/
abbrev Arr : Type := (⟨2, ![50000, 64]⟩ : Shape).Idx → EReal

/-- Add the bias row to every row, then take each row's log-softmax. -/
def biasLsm (v : Arr) (b : Fin 64 → EReal) : Arr :=
  fun i => rowLsm (fun k => v (ix2 (⟨(i 0).val, idx2_lt0 i⟩ : Fin 50000) k) + b k) (⟨(i 1).val, idx2_lt1 i⟩ : Fin 64)

theorem biasLsm_ix2 (v : Arr) (b : Fin 64 → EReal) (p : Fin 50000) (q : Fin 64) :
    biasLsm v b (ix2 p q) = rowLsm (fun k => v (ix2 p k) + b k) q := rfl

/-- The matrix product, entry by entry: the sum over the contracted coordinate. -/
def matProd (x : (⟨2, ![50000, 128]⟩ : Shape).Idx → EReal) (w : (⟨2, ![128, 64]⟩ : Shape).Idx → EReal) : Arr :=
  fun i => ∑ k : Fin 128, x (ix2 (⟨(i 0).val, idx2_lt0 i⟩ : Fin 50000) k) * w (ix2 k (⟨(i 1).val, idx2_lt1 i⟩ : Fin 64))

theorem matProd_ix2 (x : (⟨2, ![50000, 128]⟩ : Shape).Idx → EReal) (w : (⟨2, ![128, 64]⟩ : Shape).Idx → EReal)
    (p : Fin 50000) (q : Fin 64) : matProd x w (ix2 p q) = ∑ k : Fin 128, x (ix2 p k) * w (ix2 k q) := rfl

end Cert.Gcn

end
-- ==== Proof.Region0.lean ====
/-
  The first region as one function of the arrays it finds.

  The matmul kernel walks the [50000, 128] array in five blocks of 10000 rows against the whole [128, 64] weight. Block row p
  of point t is array row 10000·t + p, and an entry of the product depends on one row of the left factor only, so what point
  t writes back is block t of the whole product `matProd`. The five blocks tile the rows (row r lies in block r / 10000), so
  after the region the result array IS the product. Stated at any contents `V` of the buffers when the region is entered.
-/
import proofs.«141630_j16724602651053_1_alg».proof.Proof.Gen.KernelIdeal.Frame
import proofs.«141630_j16724602651053_1_alg».proof.Proof.MatmulBody
import proofs.«141630_j16724602651053_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's and the result's block index is (t, 0), the weight's is (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t`: rows 10000·t … 10000·t + 9999. -/
theorem block_left (c : Dev nD) (t : Fin cfg0.N) (x : S10000x128.Idx) (i : S50000x128.Idx)
    (h0 : (i 0).val = 10000 * t.val + (x 0).val) (h1 : (i 1).val = (x 1).val) :
    (iblk0 V c 0 t : Vec Ideal S10000x128 .f32) x = (V c main_arg0 : S50000x128.Idx → EReal) i := by
  obtain ⟨e0, e1, -⟩ := idx t
  unfold iblk0
  rw [View.read_apply]
  show V c main_arg0 _ = V c main_arg0 _
  refine congrArg (V c main_arg0) (funext fun a => Fin.ext ?_)
  match a with
  | ⟨0, _⟩ => show win0_0.index t 0 * 10000 + 1 * (x 0).val = (i 0).val; rw [e0, h0]; omega
  | ⟨1, _⟩ => show win0_0.index t 1 * 128 + 1 * (x 1).val = (i 1).val; rw [e1, h1]; omega

/-- The weight's block at any point is the whole weight. -/
theorem block_weight (c : Dev nD) (t : Fin cfg0.N) (x : S128x64.Idx) :
    (iblk0 V c 1 t : Vec Ideal S128x64 .f32) x = (V c main_arg2 : S128x64.Idx → EReal) x := by
  obtain ⟨-, -, e2, e3, -⟩ := idx t
  unfold iblk0
  rw [View.read_apply]
  show V c main_arg2 _ = V c main_arg2 _
  refine congrArg (V c main_arg2) (funext fun a => Fin.ext ?_)
  match a with
  | ⟨0, _⟩ => show win0_1.index t 0 * 128 + 1 * (x 0).val = (x 0).val; rw [e2]; omega
  | ⟨1, _⟩ => show win0_1.index t 1 * 64 + 1 * (x 1).val = (x 1).val; rw [e3]; omega

/-- One entry: if `x0` is rows 10000·n … of `A` and `x1` is `W`, the body's stored value at block entry `j` is the product
    `matProd A W` at the array entry `i` that `j` sits at. -/
theorem entry (x0 : Vec Ideal S10000x128 .f32) (x1 : Vec Ideal S128x64 .f32) (A : S50000x128.Idx → EReal) (W : S128x64.Idx → EReal) (n : ℕ)
    (hx0 : ∀ (y : S10000x128.Idx) (i : S50000x128.Idx), (i 0).val = 10000 * n + (y 0).val → (i 1).val = (y 1).val → x0 y = A i)
    (hx1 : ∀ y, x1 y = W y) (j : S10000x64.Idx) (i : S50000x64.Idx)
    (hi0 : (i 0).val = 10000 * n + (j 0).val) (hi1 : (i 1).val = (j 1).val) :
    k0_pay1 (F := Ideal) x0 x1 j = matProd A W i := by
  obtain ⟨p, q, rfl⟩ : ∃ (p : Fin 10000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hi1
  subst hs
  rw [Body.pay_matmul, matProd_ix2]
  refine Finset.sum_congr rfl fun k _ => ?_
  rw [hx0 (ix2 p k) (ix2 r k) hi0 rfl, hx1]

/-- WHAT POINT `t` WRITES BACK is block `t` of the product of the two arrays as the region finds them. -/
theorem flushed (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx t
  funext j
  rw [View.read_apply]
  refine entry (iblk0 V c 0 t) (iblk0 V c 1 t) (V c main_arg0) (V c main_arg2) t.val
    (fun y i h0 h1 => block_left V c t y i h0 h1) (fun y => block_weight V c t y) j _ ?_ ?_
  · show win0_2.index t 0 * 10000 + 1 * (j 0).val = 10000 * t.val + (j 0).val
    rw [e4]; omega
  · show win0_2.index t 1 * 64 + 1 * (j 1).val = (j 1).val
    rw [e5]; omega

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- THE RESULT ARRAY after the region: the product of the two arrays. -/
theorem final (c : Dev nD) : (dat0 V c).arrAt 2 cfg0.N = matProd (V c main_arg0) (V c main_arg2) :=
  (dat0 V c).arrAt_eq_of_cover 2 _ (fun t _ => flushed V c t) fun i => by
    have hN : cfg0.N = 5 := N_0
    have hi0 : (i 0).val < 50000 := (i 0).isLt
    have hi1 : (i 1).val < 64 := (i 1).isLt
    have ht : (i 0).val / 10000 < cfg0.N := by rw [hN]; omega
    refine ⟨⟨(i 0).val / 10000, ht⟩, flush0_2 _, ?_⟩
    rw [mem_blk]
    obtain ⟨-, -, -, -, e4, e5⟩ := idx ⟨(i 0).val / 10000, ht⟩
    intro a
    match a with
    | ⟨0, _⟩ =>
      show win0_2.index ⟨(i 0).val / 10000, ht⟩ 0 * 10000 ≤ (i 0).val ∧ (i 0).val < win0_2.index ⟨(i 0).val / 10000, ht⟩ 0 * 10000 + 10000
      rw [e4]; show (i 0).val / 10000 * 10000 ≤ (i 0).val ∧ (i 0).val < (i 0).val / 10000 * 10000 + 10000; omega
    | ⟨1, _⟩ =>
      show win0_2.index ⟨(i 0).val / 10000, ht⟩ 1 * 64 ≤ (i 1).val ∧ (i 1).val < win0_2.index ⟨(i 0).val / 10000, ht⟩ 1 * 64 + 64
      rw [e5]; omega

end Cert.KernelIdeal.Region0

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.SoftmaxBody.lean ====
/-
  What the second kernel's body stores, read at one entry of its [5000, 64] block.

  The body adds the bias row to the block, takes each row's maximum over the 64 lanes (started from −∞), keeps it as a column
  and spreads it back over the lanes, subtracts, exponentiates, sums each row over the lanes, takes the logarithm of that
  column and subtracts it again. Read at (p, q) every one of these steps depends on row p only: the lane maximum at p is
  `rowTop` of the row, the lane sum at p is the sum over the row's 64 entries, and a column spread over the lanes reads, at
  (p, q), the column at p. So the stored value at (p, q) is `rowLsm` of the biased row p at lane q.
-/
import proofs.«141630_j16724602651053_1_alg».proof.Proof.Gen.KernelIdeal.Skeleton
import proofs.«141630_j16724602651053_1_alg».proof.Proof.Spec
import proofs.«141630_j16724602651053_1_alg».proof.Proof.LibKeepdims
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Gcn

/-- The lane maximum of a [5000, 64] block, at row `p`: the maximum of −∞ and the row's 64 entries. -/
theorem laneMax_apply (src : FVec Ideal S5000x64 .f32) (h : S5000x64.Reduces [1] S5000) (hφ : FKind.Formats .f32)
    (hacc : (0xFF800000#32 : BitVec 32) = FKind.maximumf.neutral .f32 hφ) (p : Fin 5000) :
    multiReduction .maximumf [1] S5000 src 0xFF800000#32 h hφ hacc (ix1 p) = rowTop (fun k => src (ix2 p k)) := by
  refine (Ideal.multiReduction_maximumf_single src _ h hφ hacc (ix1 p)).trans ?_
  unfold rowTop
  refine congrArg (fun f => Finset.fold max _ f (Finset.univ : Finset (Fin 64))) (funext fun k => congrArg src (funext fun a => Fin.ext ?_))
  match a with
  | ⟨0, _⟩ => rfl
  | ⟨1, _⟩ => rfl

/-- The lane sum of a [5000, 64] block, at row `p`: the sum of the row's 64 entries. -/
theorem laneSum_apply (src : FVec Ideal S5000x64 .f32) (h : S5000x64.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 64, src (ix2 p k) := by
  refine (Ideal.multiReduction_add_single src _ h hφ hacc (ix1 p)).trans ?_
  refine Finset.sum_congr rfl fun k _ => congrArg src (funext fun a => Fin.ext ?_)
  match a with
  | ⟨0, _⟩ => rfl
  | ⟨1, _⟩ => rfl

/-- A vector of 5000 row values kept as a column and spread over the 64 lanes reads, at (p, q), the value of row p. -/
theorem spread_apply {α : Type} (w : S5000.Idx → α) (hc : S5000.ShapeCasts S5000x1) (hb : S5000x1.Broadcasts S5000x64)
    (p : Fin 5000) (q : Fin 64) : broadcastTo S5000x64 (shapeCast S5000x1 w hc) hb (ix2 p q) = w (ix1 p) :=
  (Cert.Keepdims.broadcastTo_a1_ab_apply _ hb p q).trans (Cert.Keepdims.shapeCast_a_a1_apply w hc p 0)

/-- The body's steps after the bias is added, on any [5000, 64] block `v`: at (p, q) the log-softmax of row p at lane q. -/
theorem shifted_apply (v : FVec Ideal S5000x64 .f32) (hr : S5000x64.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x64) (p : Fin 5000) (q : Fin 64) :
    subf (subf v (broadcastTo S5000x64 (shapeCast S5000x1 (multiReduction .maximumf [1] S5000 v 0xFF800000#32 hr hφ hmax) hc) hb))
      (broadcastTo S5000x64 (log (shapeCast S5000x1 (multiReduction .add [1] S5000
        (exp (subf v (broadcastTo S5000x64 (shapeCast S5000x1 (multiReduction .maximumf [1] S5000 v 0xFF800000#32 hr hφ hmax) hc) hb)))
        0x00000000#32 hr hφ hadd) hc)) hb) (ix2 p q)
    = rowLsm (fun k => v (ix2 p k)) q := by
  have hs : ∀ k : Fin 64, subf v (broadcastTo S5000x64 (shapeCast S5000x1 (multiReduction .maximumf [1] S5000 v 0xFF800000#32 hr hφ hmax) hc) hb) (ix2 p k)
      = v (ix2 p k) - rowTop (fun k => v (ix2 p k)) := fun k => by
    rw [subf_apply, spread_apply, laneMax_apply]
  generalize subf v (broadcastTo S5000x64 (shapeCast S5000x1 (multiReduction .maximumf [1] S5000 v 0xFF800000#32 hr hφ hmax) hc) hb) = d at hs ⊢
  rw [subf_apply, hs q]
  unfold rowLsm
  refine congrArg (v (ix2 p q) - rowTop (fun k => v (ix2 p k)) - ·) ?_
  rw [Cert.Keepdims.broadcastTo_a1_ab_apply]
  show Ideal.log (shapeCast S5000x1 (multiReduction .add [1] S5000 (exp d) 0x00000000#32 hr hφ hadd) hc (ix2 p (0 : Fin 1))) = _
  rw [Cert.Keepdims.shapeCast_a_a1_apply, laneSum_apply]
  refine congrArg Ideal.log (Finset.sum_congr rfl fun k _ => ?_)
  show Ideal.exp (d (ix2 p k)) = _
  rw [hs k]

/-- THE PAYLOAD AT AN ENTRY: from a [5000, 64] block `x0` and the bias row `x1`, the stored value at (p, q) is the
    log-softmax, at lane q, of row p of `x0` with the bias added. -/
theorem pay_lsm (x0 : Vec Ideal S5000x64 .f32) (x1 : Vec Ideal S1x64 .f32) (p : Fin 5000) (q : Fin 64) :
    k1_pay1 (F := Ideal) x0 x1 (ix2 p q) = rowLsm (fun k => x0 (ix2 p k) + x1 (ix2 (0 : Fin 1) k)) q := by
  unfold k1_pay1
  dsimp only
  have hv : ∀ k : Fin 64, (addf (shapeCast S5000x64 x0 shapeCasts_S5000x64_S5000x64)
      (broadcastTo S5000x64 (shapeCast S1x64 x1 shapeCasts_S1x64_S1x64) broadcasts_S1x64_S5000x64) : FVec Ideal S5000x64 .f32) (ix2 p k)
      = x0 (ix2 p k) + x1 (ix2 (0 : Fin 1) k) := fun k => by
    rw [shapeCast_self, shapeCast_self]
    exact congrArg (x0 (ix2 p k) + ·) (broadcastTo_1b_ab_apply x1 _ p k)
  generalize (addf (shapeCast S5000x64 x0 shapeCasts_S5000x64_S5000x64)
      (broadcastTo S5000x64 (shapeCast S1x64 x1 shapeCasts_S1x64_S1x64) broadcasts_S1x64_S5000x64) : FVec Ideal S5000x64 .f32) = v at hv ⊢
  rw [show (fun k => x0 (ix2 p k) + x1 (ix2 (0 : Fin 1) k)) = fun k => v (ix2 p k) from funext fun k => (hv k).symm]
  exact shifted_apply v _ _ _ _ _ _ p q

end Cert.KernelIdeal.Body

end
-- ==== Proof.Region1.lean ====
/-
  The second region as one function of the arrays it finds.

  The bias + log-softmax kernel walks the [50000, 64] array in ten blocks of 5000 rows; the bias row is the same [1, 64] block
  at every point. Block row p of point t is array row 5000·t + p, and every step of the body is local to a row, so what
  point t writes back is block t of ONE whole-array function: `biasLsm` of the array and the bias row. The ten blocks tile
  the rows (row r lies in block r / 5000), so after the region the result array IS that function.
  Stated at any contents `V` of the buffers when the region is entered.
-/
import proofs.«141630_j16724602651053_1_alg».proof.Proof.Gen.KernelIdeal.Frame
import proofs.«141630_j16724602651053_1_alg».proof.Proof.SoftmaxBody
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the array's and the result's block index is (t, 0), the bias row's is (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array's block at point `t`: rows 5000·t … 5000·t + 4999. -/
theorem block_array (c : Dev nD) (t : Fin cfg1.N) (x : S5000x64.Idx) (i : S50000x64.Idx)
    (h0 : (i 0).val = 5000 * t.val + (x 0).val) (h1 : (i 1).val = (x 1).val) :
    (iblk1 V c 0 t : Vec Ideal S5000x64 .f32) x = (V c main_v43 : S50000x64.Idx → EReal) i := by
  obtain ⟨e0, e1, -⟩ := idx t
  unfold iblk1
  rw [View.read_apply]
  show V c main_v43 _ = V c main_v43 _
  refine congrArg (V c main_v43) (funext fun a => Fin.ext ?_)
  match a with
  | ⟨0, _⟩ => show win1_0.index t 0 * 5000 + 1 * (x 0).val = (i 0).val; rw [e0, h0]; omega
  | ⟨1, _⟩ => show win1_0.index t 1 * 64 + 1 * (x 1).val = (i 1).val; rw [e1, h1]; omega

/-- The bias row's block at any point is the whole row. -/
theorem block_bias (c : Dev nD) (t : Fin cfg1.N) (x : S1x64.Idx) :
    (iblk1 V c 1 t : Vec Ideal S1x64 .f32) x = (V c main_v44 : S1x64.Idx → EReal) x := by
  obtain ⟨-, -, e2, e3, -⟩ := idx t
  unfold iblk1
  rw [View.read_apply]
  show V c main_v44 _ = V c main_v44 _
  refine congrArg (V c main_v44) (funext fun a => Fin.ext ?_)
  match a with
  | ⟨0, _⟩ => show win1_1.index t 0 * 1 + 1 * (x 0).val = (x 0).val; rw [e2]; omega
  | ⟨1, _⟩ => show win1_1.index t 1 * 64 + 1 * (x 1).val = (x 1).val; rw [e3]; omega

/-- One entry: if `x0` is rows 5000·n … of `A` and `x1` is the row `B`, the body's stored value at block entry `j` is
    `biasLsm A B` at the array entry `i` that `j` sits at. -/
theorem entry (x0 : Vec Ideal S5000x64 .f32) (x1 : Vec Ideal S1x64 .f32) (A : S50000x64.Idx → EReal) (B : S1x64.Idx → EReal) (n : ℕ)
    (hx0 : ∀ (y : S5000x64.Idx) (i : S50000x64.Idx), (i 0).val = 5000 * n + (y 0).val → (i 1).val = (y 1).val → x0 y = A i)
    (hx1 : ∀ y, x1 y = B y) (j : S5000x64.Idx) (i : S50000x64.Idx)
    (hi0 : (i 0).val = 5000 * n + (j 0).val) (hi1 : (i 1).val = (j 1).val) :
    k1_pay1 (F := Ideal) x0 x1 j = biasLsm A (fun k => B (ix2 (0 : Fin 1) k)) i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hi1
  subst hs
  rw [Body.pay_lsm, biasLsm_ix2]
  refine congrArg (fun u => rowLsm u s) (funext fun k => ?_)
  rw [hx0 (ix2 p k) (ix2 r k) hi0 rfl, hx1]

/-- WHAT POINT `t` WRITES BACK is block `t` of `biasLsm` of the array and the bias row as the region finds them. -/
theorem flushed (c : Dev nD) (t : Fin cfg1.N) :
    (dat1 V c).flushed 2 t = ((cfg1.win 2).blk t).view.read (Elt Ideal)
      (biasLsm (V c main_v43) (fun k => (V c main_v44 : S1x64.Idx → EReal) (ix2 (0 : Fin 1) k))) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e4, e5⟩ := idx t
  funext j
  rw [View.read_apply]
  refine entry (iblk1 V c 0 t) (iblk1 V c 1 t) (V c main_v43) (V c main_v44) t.val
    (fun y i h0 h1 => block_array V c t y i h0 h1) (fun y => block_bias V c t y) j _ ?_ ?_
  · show win1_2.index t 0 * 5000 + 1 * (j 0).val = 5000 * t.val + (j 0).val
    rw [e4]; omega
  · show win1_2.index t 1 * 64 + 1 * (j 1).val = (j 1).val
    rw [e5]; omega

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- THE RESULT ARRAY after the region: the log-softmax of every row of the array plus the bias row. -/
theorem final (c : Dev nD) : (dat1 V c).arrAt 2 cfg1.N
    = biasLsm (V c main_v43) (fun k => (V c main_v44 : S1x64.Idx → EReal) (ix2 (0 : Fin 1) k)) :=
  (dat1 V c).arrAt_eq_of_cover 2 _ (fun t _ => flushed V c t) fun i => by
    have hN : cfg1.N = 10 := N_1
    have hi0 : (i 0).val < 50000 := (i 0).isLt
    have hi1 : (i 1).val < 64 := (i 1).isLt
    have ht : (i 0).val / 5000 < cfg1.N := by rw [hN]; omega
    refine ⟨⟨(i 0).val / 5000, ht⟩, flush1_2 _, ?_⟩
    rw [mem_blk]
    obtain ⟨-, -, -, -, e4, e5⟩ := idx ⟨(i 0).val / 5000, ht⟩
    intro a
    match a with
    | ⟨0, _⟩ =>
      show win1_2.index ⟨(i 0).val / 5000, ht⟩ 0 * 5000 ≤ (i 0).val ∧ (i 0).val < win1_2.index ⟨(i 0).val / 5000, ht⟩ 0 * 5000 + 5000
      rw [e4]; show (i 0).val / 5000 * 5000 ≤ (i 0).val ∧ (i 0).val < (i 0).val / 5000 * 5000 + 5000; omega
    | ⟨1, _⟩ =>
      show win1_2.index ⟨(i 0).val / 5000, ht⟩ 1 * 64 ≤ (i 1).val ∧ (i 1).val < win1_2.index ⟨(i 0).val / 5000, ht⟩ 1 * 64 + 64
      rw [e5]; omega

end Cert.KernelIdeal.Region1

end
-- ==== Proof.MidK.lean ====
/-
  The graph propagation between the two dense stages, as ONE function `mid h e` of the transformed features `h` ([50000, 64])
  and the edge list `e` ([2, 800000] node numbers), in this program's own vocabulary of shapes and dimension records.

  In stages: the sources are row 0 of the edge list followed by the self loops 0 … 49999, the destinations row 1 followed by
  the same; a node number below zero is wrapped by 50000 before it indexes; the degree of a node is the number of edges
  (self loop included) that end at it, as a scatter-add of ones; its inverse square root is taken where the degree is
  positive and is 0 elsewhere; an edge's norm is the product of the two at its ends; and `mid h e` scatter-adds, to each
  edge's destination, the source's row of `h` scaled by the edge's norm. Nothing here is ever opened: both programs apply
  this same function, and the certificate only needs that it is the same.
-/
import proofs.«141630_j16724602651053_1_alg».proof.KernelIdeal
import proofs.«141630_j16724602651053_1_alg».proof.Proof.Gen.KernelIdeal

noncomputable section

namespace Cert.KernelIdeal.Mid

open Cert.KernelIdeal Cert.KernelIdeal.Gen Idealize.ShloMosaic

variable {F : FTy → Type} [FloatOps F]

/-- Row 0 of the edge list, then the self loops. -/
def srcs (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list, then the self loops. -/
def dsts (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number below zero counts from the end: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree with self loops: ones scatter-added at the destinations. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dsts e)) (broadcastInDim S850000 ![] bcast_S_S850000 (constant S_ .f32 0x3F800000#32))

/-- The inverse square root of the degree where it is positive, 0 elsewhere. -/
def dinv (e : (⟨S2x800000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- An edge's norm: the product of the two inverse square roots at its ends. -/
def norm (e : (⟨S2x800000, .i32⟩ : BufTy).Contents (Elt F)) : (⟨S850000, .f32⟩ : BufTy).Contents (Elt F) :=
  mulf (Host.gather gather_S50000_S850000x1_S850000_n_0_n_n_0_1_1 (dinv e) (broadcastInDim S850000x1 ![0] bcast_S850000_S850000x1_0 (wrap (srcs e)))) (Host.gather gather_S50000_S850000x1_S850000_n_0_n_n_0_1_1 (dinv e) (broadcastInDim S850000x1 ![0] bcast_S850000_S850000x1_0 (wrap (dsts e))))

/-- THE PROPAGATION: to each edge's destination, its source's row of `h` times the edge's norm, summed. -/
def mid (h : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dsts e)) (mulf (Host.gather gather_S50000x64_S850000x1_S850000x64_1_0_n_n_0_1_164 h (broadcastInDim S850000x1 ![0] bcast_S850000_S850000x1_0 (wrap (srcs e)))) (broadcastInDim S850000x64 ![0, 1] bcast_S850000x1_S850000x64_0_1 (broadcastInDim S850000x1 ![0] bcast_S850000_S850000x1_0 (norm e))))

end Cert.KernelIdeal.Mid

end
-- ==== Proof.StagesK.lean ====
/-
  The host operations between the kernel program's two regions, evaluated part by part.

  Each lemma says what one part of the host operations leaves in one buffer, from ANY contents `U` of the buffers it starts
  from, as a small term of a few of `U`'s buffers: the first part leaves the sources and destinations of the edges (self
  loops appended), whether each degree is positive, and the degrees' inverse square roots; the second selects between the
  inverse square root and 0; the third wraps the node numbers, gathers, scales and scatter-adds. Laid end to end they are
  `mid` of the features and the edge list (`propagation`).
-/
import proofs.«141630_j16724602651053_1_alg».proof.Proof.Gen.KernelIdeal.Launch
import proofs.«141630_j16724602651053_1_alg».proof.Proof.MidK
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo
open Idealize.SL.Sem

variable {F : FTy → Type} [FloatOps F]
variable (U : Valuation τ sig (Elt F))

/-! ## First part -/

theorem ends_srcs : after hostOps1 U (Proc.devRef .tc main_v4) = Mid.srcs (F := F) (U (Proc.devRef .tc main_arg1)) := by
  dsimp only [hostOps1]; after_results <;> rfl
theorem ends_dsts : after hostOps1 U (Proc.devRef .tc main_v7) = Mid.dsts (F := F) (U (Proc.devRef .tc main_arg1)) := by
  dsimp only [hostOps1]; after_results <;> rfl
theorem ends_positive : after hostOps1 U (Proc.devRef .tc main_v13)
    = cmpf .ogt (Mid.deg (F := F) (U (Proc.devRef .tc main_arg1))) (broadcastInDim S50000 ![] bcast_S_S50000 (constant S_ .f32 0x00000000#32)) := by
  dsimp only [hostOps1]; after_results <;> rfl
theorem ends_rsqrt : after hostOps1 U (Proc.devRef .tc main_v14) = Host.rsqrt (Mid.deg (F := F) (U (Proc.devRef .tc main_arg1))) := by
  dsimp only [hostOps1]; after_results <;> rfl
theorem ends_zero : after hostOps1 U (Proc.devRef .tc main_cst_2) = constant (F := F) S_ .f32 0x00000000#32 := by
  dsimp only [hostOps1]; after_results <;> rfl
theorem ends_feat : after hostOps1 U (Proc.devRef .tc main_v0) = U (Proc.devRef .tc main_v0) := by
  dsimp only [hostOps1]; after_results <;> rfl
theorem ends_bias : after hostOps1 U (Proc.devRef .tc main_arg3) = U (Proc.devRef .tc main_arg3) := by
  dsimp only [hostOps1]; after_results <;> rfl

/-! ## Second part -/

theorem mask_dinv : after hostOps1_1 U (Proc.devRef .tc main_v15)
    = select (U (Proc.devRef .tc main_v13) : (⟨S50000, .i1⟩ : BufTy).Contents (Elt F)) (U (Proc.devRef .tc main_v14) : (⟨S50000, .f32⟩ : BufTy).Contents (Elt F))
        (broadcastInDim S50000 ![] bcast_S_S50000 (id (U (Proc.devRef .tc main_cst_2) : (⟨S_, .f32⟩ : BufTy).Contents (Elt F)))) := by
  dsimp only [hostOps1_1]; after_results <;> rfl
theorem mask_srcs : after hostOps1_1 U (Proc.devRef .tc main_v4) = U (Proc.devRef .tc main_v4) := by
  dsimp only [hostOps1_1]; after_results <;> rfl
theorem mask_dsts : after hostOps1_1 U (Proc.devRef .tc main_v7) = U (Proc.devRef .tc main_v7) := by
  dsimp only [hostOps1_1]; after_results <;> rfl
theorem mask_feat : after hostOps1_1 U (Proc.devRef .tc main_v0) = U (Proc.devRef .tc main_v0) := by
  dsimp only [hostOps1_1]; after_results <;> rfl
theorem mask_bias : after hostOps1_1 U (Proc.devRef .tc main_arg3) = U (Proc.devRef .tc main_arg3) := by
  dsimp only [hostOps1_1]; after_results <;> rfl

/-! ## Third part -/

set_option maxHeartbeats 2000000 in
theorem gather_out : after hostOps1_2 U (Proc.devRef .tc main_v43)
    = Host.scatterAdd scatter_S50000x64_S850000x1_S850000x64_1_0_0_1 (broadcastInDim S50000x64 ![] bcast_S_S50000x64 (constant S_ .f32 0x00000000#32))
        (broadcastInDim S850000x1 ![0] bcast_S850000_S850000x1_0 (U (Proc.devRef .tc main_v7) : (⟨S850000, .i32⟩ : BufTy).Contents (Elt F)))
        (mulf (Host.gather gather_S50000x64_S850000x1_S850000x64_1_0_n_n_0_1_164 (U (Proc.devRef .tc main_v0) : (⟨S50000x64, .f32⟩ : BufTy).Contents (Elt F))
            (broadcastInDim S850000x1 ![0] bcast_S850000_S850000x1_0 (Mid.wrap (F := F) (U (Proc.devRef .tc main_v4)))))
          (broadcastInDim S850000x64 ![0, 1] bcast_S850000x1_S850000x64_0_1 (broadcastInDim S850000x1 ![0] bcast_S850000_S850000x1_0
            (mulf (Host.gather gather_S50000_S850000x1_S850000_n_0_n_n_0_1_1 (U (Proc.devRef .tc main_v15) : (⟨S50000, .f32⟩ : BufTy).Contents (Elt F))
                (broadcastInDim S850000x1 ![0] bcast_S850000_S850000x1_0 (Mid.wrap (F := F) (U (Proc.devRef .tc main_v4)))))
              (Host.gather gather_S50000_S850000x1_S850000_n_0_n_n_0_1_1 (U (Proc.devRef .tc main_v15) : (⟨S50000, .f32⟩ : BufTy).Contents (Elt F))
                (broadcastInDim S850000x1 ![0] bcast_S850000_S850000x1_0 (Mid.wrap (F := F) (U (Proc.devRef .tc main_v7))))))))) := by
  dsimp only [hostOps1_2]; after_results <;> rfl
theorem gather_bias : after hostOps1_2 U (Proc.devRef .tc main_v44)
    = shapeCast S1x64 (U (Proc.devRef .tc main_arg3) : (⟨S64, .f32⟩ : BufTy).Contents (Elt F)) shapeCasts_S64_S1x64 := by
  dsimp only [hostOps1_2]; after_results <;> rfl

/-- The bias operand of the second region: the bias as one row. -/
theorem bias_row : after hostOps1_2 (after hostOps1_1 (after hostOps1 U)) (Proc.devRef .tc main_v44)
    = shapeCast S1x64 (U (Proc.devRef .tc main_arg3) : (⟨S64, .f32⟩ : BufTy).Contents (Elt F)) shapeCasts_S64_S1x64 := by
  rw [gather_bias, mask_bias, ends_bias]

/-! ## Laid end to end -/

/-- The three parts one after the other leave the propagation of the features along the edge list. -/
theorem propagation : after hostOps1_2 (after hostOps1_1 (after hostOps1 U)) (Proc.devRef .tc main_v43)
    = Mid.mid (F := F) (U (Proc.devRef .tc main_v0)) (U (Proc.devRef .tc main_arg1)) := by
  rw [gather_out, mask_dinv, mask_dsts, mask_srcs, mask_feat, ends_dsts, ends_srcs, ends_feat, ends_positive, ends_rsqrt, ends_zero]
  rfl

end Cert.KernelIdeal.Stages

end
-- ==== Proof.Between.lean ====
/-
  Between the two regions: what the three stretches of host operations leave for the second region, read off the fold of
  their results over the contents the first region leaves (`W1`).

  The propagated features (the second region's array operand) are `mid` of the first region's result array and of the edge
  list; the bias operand is the bias recast as one row. Both are the staged evaluation of the stretches, taken at the
  contents the first region leaves, which stay unopened.
-/
import proofs.«141630_j16724602651053_1_alg».proof.Proof.Gen.KernelIdeal.Frame
import proofs.«141630_j16724602651053_1_alg».proof.Proof.StagesK

noncomputable section

namespace Cert.KernelIdeal.Between

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The second region's array operand: the propagation of the first region's result along the edge list. -/
theorem propagated (c : Dev nD) :
    W4 m ρ c (Proc.devRef .tc main_v43)
      = Mid.mid (F := F) (W1 m ρ c (Proc.devRef .tc main_v0)) (W1 m ρ c (Proc.devRef .tc main_arg1)) :=
  Stages.propagation (W1 m ρ c)

/-- The second region's bias operand: the bias as a [1, 64] row. -/
theorem bias_row (c : Dev nD) :
    W4 m ρ c (Proc.devRef .tc main_v44)
      = shapeCast S1x64 (W1 m ρ c (Proc.devRef .tc main_arg3)) shapeCasts_S64_S1x64 :=
  Stages.bias_row (W1 m ρ c)

end Cert.KernelIdeal.Between

end
-- ==== Proof.KernelValue.lean ====
/-
  The idealized kernel's result as one function of its arguments.

  The result buffer ends at what the second region's write-backs leave, which is `biasLsm` of that region's two operands; the
  array operand is the propagation `mid` of what the first region left and of the edge list, which no region writes; what the
  first region left is the product of the features and the weight, as launched; the bias operand is the bias as one row, so
  its entry (0, k) is the bias at k.
-/
import proofs.«141630_j16724602651053_1_alg».proof.Proof.KernelRun
import proofs.«141630_j16724602651053_1_alg».proof.Proof.Region0
import proofs.«141630_j16724602651053_1_alg».proof.Proof.Region1
import proofs.«141630_j16724602651053_1_alg».proof.Proof.Between
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Cert.Gcn

variable (m : (ℓ : Loc nD τ sig) → Buf (Elt Ideal) ℓ) (ρ : Dev nD → PrngReg)

/-- What the first region leaves in its result array: the product of the features and the weight as launched. -/
theorem first_result (c : Dev nD) :
    W1 m ρ c (Proc.devRef .tc main_v0)
      = matProd (m ((c.tc : Thread nD τ).loc main_arg0)) (m ((c.tc : Thread nD τ).loc main_arg2)) :=
  (W1_arr m ρ c 2).trans (Region0.final (V0 m ρ) c)

/-- THE RESULT: the row-wise log-softmax of (the product propagated along the edges, plus the bias). -/
theorem value (c : Dev nD) :
    W5 m ρ c (Proc.devRef .tc main_v45)
      = biasLsm (Mid.mid (F := Ideal) (matProd (m ((c.tc : Thread nD τ).loc main_arg0)) (m ((c.tc : Thread nD τ).loc main_arg2)))
            (m ((c.tc : Thread nD τ).loc main_arg1)))
          (fun k => (m ((c.tc : Thread nD τ).loc main_arg3) : S64.Idx → EReal) (ix1 k)) := by
  refine (W5_arr m ρ c 2).trans ((Region1.final (V4 m ρ) c).trans ?_)
  have h43 : V4 m ρ c main_v43
      = Mid.mid (F := Ideal) (matProd (m ((c.tc : Thread nD τ).loc main_arg0)) (m ((c.tc : Thread nD τ).loc main_arg2)))
          (m ((c.tc : Thread nD τ).loc main_arg1)) := by
    refine (Between.propagated m ρ c).trans ?_
    rw [first_result m ρ c, W1_of_ne m ρ c main_arg1 (by decide)]
  have h44 : ∀ k : Fin 64, (V4 m ρ c main_v44 : S1x64.Idx → EReal) (ix2 (0 : Fin 1) k)
      = (m ((c.tc : Thread nD τ).loc main_arg3) : S64.Idx → EReal) (ix1 k) := fun k => by
    rw [show V4 m ρ c main_v44 = _ from Between.bias_row m ρ c, shapeCast_a_1a_apply, W1_of_ne m ρ c main_arg3 (by decide)]
  rw [h43]
  exact congrArg (biasLsm _) (funext h44)

end Cert.KernelIdeal.Whole

end
-- ==== Proof.RefOps.lean ====
/-
  The reference program's @main as data, and its run.

  @main is straight-line: 75 host operations, the bodies of the two outlined functions (the masked select, the log-softmax)
  standing in their calls' places. They are listed here in program order, and also as stretches: the features' transform
  (one matrix product), the propagation along the edges in three parts, and the bias with the row-wise log-softmax. Every weakly
  fair execution terminates with every buffer at the fold of the operations' results over the launch memory; a fold over
  stretches laid end to end is the folds one after the other (`after_append`).
-/
import proofs.«141630_j16724602651053_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The features' transform: one matrix product. -/
abbrev opsDot : List (HloOp τ sig (Elt F)) :=
  [ binary main_arg0 main_arg2 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The propagation along the edges, first part: the edge ends with the self loops, the degrees, their comparison with 0 and
    their inverse square roots. -/
abbrev opsEnds : List (HloOp τ sig (Elt F)) :=
  [ nullary main_v1 (iotaInDim S50000 32 0),
    unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    reshape main_v5 main_v6 rfl shapeCasts_S1x800000_S800000,
    binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32) ]

/-- Second part: the masked select (the outlined function's three operations). -/
abbrev opsMask : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Third part: the wrapped indices, the gathers, the edge norms and the scatter-add. -/
abbrev opsGather : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v4 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v4 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v4 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v4 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v4 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v4 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- The bias and the row-wise log-softmax: 18 operations. -/
abbrev opsTail : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v46) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v46) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v47) subf ]

/-- @main's 75 operations, in order. -/
abbrev ops : List (HloOp τ sig (Elt F)) :=
  [ binary main_arg0 main_arg2 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_v1 (iotaInDim S50000 32 0),
    unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    reshape main_v5 main_v6 rfl shapeCasts_S1x800000_S800000,
    binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v4 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v4 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v4 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v4 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v4 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v4 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v46) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v46) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v47) subf ]

theorem ops_split : (ops : List (HloOp τ sig (Elt F))) = opsDot ++ (opsEnds ++ (opsMask ++ (opsGather ++ opsTail))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- A fold over two stretches laid end to end is the second stretch's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- On every device, from any memory with zero counters: every weakly fair execution of @main terminates, and every buffer
    ends at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Ops

end
-- ==== Proof.MidR.lean ====
/-
  The graph propagation between the two dense stages, as ONE function `mid h e` of the transformed features `h` ([50000, 64])
  and the edge list `e` ([2, 800000] node numbers), in this program's own vocabulary of shapes and dimension records.

  In stages: the sources are row 0 of the edge list followed by the self loops 0 … 49999, the destinations row 1 followed by
  the same; a node number below zero is wrapped by 50000 before it indexes; the degree of a node is the number of edges
  (self loop included) that end at it, as a scatter-add of ones; its inverse square root is taken where the degree is
  positive and is 0 elsewhere; an edge's norm is the product of the two at its ends; and `mid h e` scatter-adds, to each
  edge's destination, the source's row of `h` scaled by the edge's norm. Nothing here is ever opened: both programs apply
  this same function, and the certificate only needs that it is the same.
-/
import proofs.«141630_j16724602651053_1_alg».proof.ReferenceIdeal
import proofs.«141630_j16724602651053_1_alg».proof.Proof.Gen.ReferenceIdeal

noncomputable section

namespace Cert.ReferenceIdeal.Mid

open Cert.ReferenceIdeal Cert.ReferenceIdeal.Gen Idealize.ShloMosaic

variable {F : FTy → Type} [FloatOps F]

/-- Row 0 of the edge list, then the self loops. -/
def srcs (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list, then the self loops. -/
def dsts (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number below zero counts from the end: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree with self loops: ones scatter-added at the destinations. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dsts e)) (broadcastInDim S850000 ![] bcast_S_S850000 (constant S_ .f32 0x3F800000#32))

/-- The inverse square root of the degree where it is positive, 0 elsewhere. -/
def dinv (e : (⟨S2x800000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- An edge's norm: the product of the two inverse square roots at its ends. -/
def norm (e : (⟨S2x800000, .i32⟩ : BufTy).Contents (Elt F)) : (⟨S850000, .f32⟩ : BufTy).Contents (Elt F) :=
  mulf (Host.gather gather_S50000_S850000x1_S850000_n_0_n_n_0_1_1 (dinv e) (broadcastInDim S850000x1 ![0] bcast_S850000_S850000x1_0 (wrap (srcs e)))) (Host.gather gather_S50000_S850000x1_S850000_n_0_n_n_0_1_1 (dinv e) (broadcastInDim S850000x1 ![0] bcast_S850000_S850000x1_0 (wrap (dsts e))))

/-- THE PROPAGATION: to each edge's destination, its source's row of `h` times the edge's norm, summed. -/
def mid (h : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dsts e)) (mulf (Host.gather gather_S50000x64_S850000x1_S850000x64_1_0_n_n_0_1_164 h (broadcastInDim S850000x1 ![0] bcast_S850000_S850000x1_0 (wrap (srcs e)))) (broadcastInDim S850000x64 ![0, 1] bcast_S850000x1_S850000x64_0_1 (broadcastInDim S850000x1 ![0] bcast_S850000_S850000x1_0 (norm e))))

end Cert.ReferenceIdeal.Mid

end
-- ==== Proof.StagesR.lean ====
/-
  The reference's propagation along the edges, evaluated part by part.

  Each lemma says what one part of the host operations leaves in one buffer, from ANY contents `U` of the buffers it starts
  from, as a small term of a few of `U`'s buffers: the first part leaves the sources and destinations of the edges (self
  loops appended), whether each degree is positive, and the degrees' inverse square roots; the second selects between the
  inverse square root and 0; the third wraps the node numbers, gathers, scales and scatter-adds. Laid end to end they are
  `mid` of the features and the edge list (`propagation`).
-/
import proofs.«141630_j16724602651053_1_alg».proof.Proof.RefOps
import proofs.«141630_j16724602651053_1_alg».proof.Proof.MidR

set_option maxRecDepth 16384

noncomputable section

namespace Cert.ReferenceIdeal.Stages

open Cert.ReferenceIdeal Cert.ReferenceIdeal.Gen Cert.ReferenceIdeal.Ops
open Idealize.ShloMosaic Idealize.ShloMosaic.TcCoe Idealize.ShloMosaic.StableHlo
open Idealize.SL.Sem

variable {F : FTy → Type} [FloatOps F]
variable (U : Valuation τ sig (Elt F))

/-! ## First part -/

theorem ends_srcs : after opsEnds U (Proc.devRef .tc main_v4) = Mid.srcs (F := F) (U (Proc.devRef .tc main_arg1)) := by
  dsimp only [opsEnds]; after_results <;> rfl
theorem ends_dsts : after opsEnds U (Proc.devRef .tc main_v7) = Mid.dsts (F := F) (U (Proc.devRef .tc main_arg1)) := by
  dsimp only [opsEnds]; after_results <;> rfl
theorem ends_positive : after opsEnds U (Proc.devRef .tc main_v13)
    = cmpf .ogt (Mid.deg (F := F) (U (Proc.devRef .tc main_arg1))) (broadcastInDim S50000 ![] bcast_S_S50000 (constant S_ .f32 0x00000000#32)) := by
  dsimp only [opsEnds]; after_results <;> rfl
theorem ends_rsqrt : after opsEnds U (Proc.devRef .tc main_v14) = Host.rsqrt (Mid.deg (F := F) (U (Proc.devRef .tc main_arg1))) := by
  dsimp only [opsEnds]; after_results <;> rfl
theorem ends_zero : after opsEnds U (Proc.devRef .tc main_cst_2) = constant (F := F) S_ .f32 0x00000000#32 := by
  dsimp only [opsEnds]; after_results <;> rfl
theorem ends_feat : after opsEnds U (Proc.devRef .tc main_v0) = U (Proc.devRef .tc main_v0) := by
  dsimp only [opsEnds]; after_results <;> rfl
theorem ends_bias : after opsEnds U (Proc.devRef .tc main_arg3) = U (Proc.devRef .tc main_arg3) := by
  dsimp only [opsEnds]; after_results <;> rfl

/-! ## Second part -/

theorem mask_dinv : after opsMask U (Proc.devRef .tc main_v15)
    = select (U (Proc.devRef .tc main_v13) : (⟨S50000, .i1⟩ : BufTy).Contents (Elt F)) (U (Proc.devRef .tc main_v14) : (⟨S50000, .f32⟩ : BufTy).Contents (Elt F))
        (broadcastInDim S50000 ![] bcast_S_S50000 (id (U (Proc.devRef .tc main_cst_2) : (⟨S_, .f32⟩ : BufTy).Contents (Elt F)))) := by
  dsimp only [opsMask]; after_results <;> rfl
theorem mask_srcs : after opsMask U (Proc.devRef .tc main_v4) = U (Proc.devRef .tc main_v4) := by
  dsimp only [opsMask]; after_results <;> rfl
theorem mask_dsts : after opsMask U (Proc.devRef .tc main_v7) = U (Proc.devRef .tc main_v7) := by
  dsimp only [opsMask]; after_results <;> rfl
theorem mask_feat : after opsMask U (Proc.devRef .tc main_v0) = U (Proc.devRef .tc main_v0) := by
  dsimp only [opsMask]; after_results <;> rfl
theorem mask_bias : after opsMask U (Proc.devRef .tc main_arg3) = U (Proc.devRef .tc main_arg3) := by
  dsimp only [opsMask]; after_results <;> rfl

/-! ## Third part -/

set_option maxHeartbeats 2000000 in
theorem gather_out : after opsGather U (Proc.devRef .tc main_v43)
    = Host.scatterAdd scatter_S50000x64_S850000x1_S850000x64_1_0_0_1 (broadcastInDim S50000x64 ![] bcast_S_S50000x64 (constant S_ .f32 0x00000000#32))
        (broadcastInDim S850000x1 ![0] bcast_S850000_S850000x1_0 (U (Proc.devRef .tc main_v7) : (⟨S850000, .i32⟩ : BufTy).Contents (Elt F)))
        (mulf (Host.gather gather_S50000x64_S850000x1_S850000x64_1_0_n_n_0_1_164 (U (Proc.devRef .tc main_v0) : (⟨S50000x64, .f32⟩ : BufTy).Contents (Elt F))
            (broadcastInDim S850000x1 ![0] bcast_S850000_S850000x1_0 (Mid.wrap (F := F) (U (Proc.devRef .tc main_v4)))))
          (broadcastInDim S850000x64 ![0, 1] bcast_S850000x1_S850000x64_0_1 (broadcastInDim S850000x1 ![0] bcast_S850000_S850000x1_0
            (mulf (Host.gather gather_S50000_S850000x1_S850000_n_0_n_n_0_1_1 (U (Proc.devRef .tc main_v15) : (⟨S50000, .f32⟩ : BufTy).Contents (Elt F))
                (broadcastInDim S850000x1 ![0] bcast_S850000_S850000x1_0 (Mid.wrap (F := F) (U (Proc.devRef .tc main_v4)))))
              (Host.gather gather_S50000_S850000x1_S850000_n_0_n_n_0_1_1 (U (Proc.devRef .tc main_v15) : (⟨S50000, .f32⟩ : BufTy).Contents (Elt F))
                (broadcastInDim S850000x1 ![0] bcast_S850000_S850000x1_0 (Mid.wrap (F := F) (U (Proc.devRef .tc main_v7))))))))) := by
  dsimp only [opsGather]; after_results <;> rfl
theorem gather_bias : after opsGather U (Proc.devRef .tc main_arg3) = U (Proc.devRef .tc main_arg3) := by
  dsimp only [opsGather]; after_results <;> rfl

/-- The propagation does not write the bias. -/
theorem bias_kept : after opsGather (after opsMask (after opsEnds U)) (Proc.devRef .tc main_arg3) = U (Proc.devRef .tc main_arg3) := by
  rw [gather_bias, mask_bias, ends_bias]

/-! ## Laid end to end -/

/-- The three parts one after the other leave the propagation of the features along the edge list. -/
theorem propagation : after opsGather (after opsMask (after opsEnds U)) (Proc.devRef .tc main_v43)
    = Mid.mid (F := F) (U (Proc.devRef .tc main_v0)) (U (Proc.devRef .tc main_arg1)) := by
  rw [gather_out, mask_dinv, mask_dsts, mask_srcs, mask_feat, ends_dsts, ends_srcs, ends_feat, ends_positive, ends_rsqrt, ends_zero]
  rfl

end Cert.ReferenceIdeal.Stages

end
-- ==== Proof.TailR.lean ====
/-
  The reference's last stretch as ONE function of the propagated features `p` ([50000, 64]) and the bias `b` ([64]), in the
  reference's own vocabulary: the bias spread over the rows and added (`biased`); each row's maximum, taken from −∞ and then
  once more against −∞ (`top`); the rows shifted by it (`shifted`); and the shifted rows minus the logarithm of the row sums
  of their exponentials (`lsm`). The spreading is by two broadcasts each time: [50000] to a column [50000, 1], the column
  over the 64 lanes.
-/
import proofs.«141630_j16724602651053_1_alg».proof.ReferenceIdeal
import proofs.«141630_j16724602651053_1_alg».proof.Proof.Gen.ReferenceIdeal

noncomputable section

namespace Cert.ReferenceIdeal.Tail

open Cert.ReferenceIdeal Cert.ReferenceIdeal.Gen Idealize.ShloMosaic

variable {F : FTy → Type} [FloatOps F]

/-- The features with the bias added to every row. -/
def biased (p : (⟨S50000x64, .f32⟩ : BufTy).Contents (Elt F)) (b : (⟨S64, .f32⟩ : BufTy).Contents (Elt F)) : (⟨S50000x64, .f32⟩ : BufTy).Contents (Elt F) :=
  addf p (broadcastInDim S50000x64 ![0, 1] bcast_S1x64_S50000x64_0_1 (broadcastInDim S1x64 ![1] bcast_S64_S1x64_1 b))

/-- Each row's maximum. -/
def top (u : (⟨S50000x64, .f32⟩ : BufTy).Contents (Elt F)) : (⟨S50000, .f32⟩ : BufTy).Contents (Elt F) :=
  maximumf (broadcastInDim S50000 ![] bcast_S_S50000 (constant S_ .f32 0xFF800000#32)) (Host.reduce FloatOps.maximumf u (constant S_ .f32 0xFF800000#32) reducesTo_S50000x64_S50000_d1 h_S_)

/-- The rows shifted by their maxima. -/
def shifted (u : (⟨S50000x64, .f32⟩ : BufTy).Contents (Elt F)) : (⟨S50000x64, .f32⟩ : BufTy).Contents (Elt F) :=
  subf u (broadcastInDim S50000x64 ![0, 1] bcast_S50000x1_S50000x64_0_1 (broadcastInDim S50000x1 ![0] bcast_S50000_S50000x1_0 (top u)))

/-- The row-wise log-softmax. -/
def lsm (u : (⟨S50000x64, .f32⟩ : BufTy).Contents (Elt F)) : (⟨S50000x64, .f32⟩ : BufTy).Contents (Elt F) :=
  subf (shifted u) (broadcastInDim S50000x64 ![0, 1] bcast_S50000x1_S50000x64_0_1 (Host.log (broadcastInDim S50000x1 ![0] bcast_S50000_S50000x1_0 (Host.reduceAdd (Host.exp (shifted u)) (constant S_ .f32 0x00000000#32) reducesTo_S50000x64_S50000_d1 h_S_))))

end Cert.ReferenceIdeal.Tail

end
-- ==== Proof.RefEval.lean ====
/-
  The reference's run, evaluated: what the fold of its 75 operations leaves in the result buffer and in the arguments.

  The fold is taken stretch by stretch, the contents each stretch starts from a variable: the last stretch leaves the
  log-softmax of the biased features, as a function of the two buffers it reads; the three middle parts leave the propagation
  `mid` of the product and the edge list (the staged evaluation); the first leaves the product. No operation writes an argument.
-/
import proofs.«141630_j16724602651053_1_alg».proof.Proof.RefOps
import proofs.«141630_j16724602651053_1_alg».proof.Proof.MidR
import proofs.«141630_j16724602651053_1_alg».proof.Proof.StagesR
import proofs.«141630_j16724602651053_1_alg».proof.Proof.TailR

set_option maxRecDepth 16384

noncomputable section

namespace Cert.ReferenceIdeal.Eval

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-! ## The last stretch, in four parts -/

/-- The bias spread over the rows and added. -/
abbrev opsBias : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]
/-- Each row's maximum. -/
abbrev opsTop : List (HloOp τ sig (Elt F)) :=
  [ TRef.nullary (TRef.of (T := ⟨S_, .f32⟩) main_call1_cst) (constant S_ .f32 0xFF800000#32),
    TRef.binary (TRef.of (T := ⟨S50000x64, .f32⟩) main_v46) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]
/-- The rows shifted by their maxima. -/
abbrev opsShift : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v46) (TRef.of (T := ⟨S50000x64, .f32⟩) main_call1_v4) (TRef.of (T := ⟨S50000x64, .f32⟩) main_call1_v5) subf ]
/-- The logarithm of the row sums of the exponentials, subtracted. -/
abbrev opsLog : List (HloOp τ sig (Elt F)) :=
  [ TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v47) subf ]

theorem tail_split : (opsTail : List (HloOp τ sig (Elt F))) = opsBias ++ (opsTop ++ (opsShift ++ opsLog)) := rfl

section Parts
variable (U : Valuation τ sig (Elt F))

theorem bias_part : after opsBias U (Proc.devRef .tc main_v46)
    = Tail.biased (F := F) (U (Proc.devRef .tc main_v43)) (U (Proc.devRef .tc main_arg3)) := by
  dsimp only [opsBias]; after_results <;> rfl
/-- Contents carried to a buffer's own type and back are unchanged; at these two buffers, whose types are the values' types,
    each direction alone is the identity. -/
theorem ofBuf_toBuf {T : BufTy} (r : TRef sig T) (v : T.Contents (Elt F)) : r.ofBuf (r.toBuf v) = v := by
  unfold TRef.ofBuf TRef.toBuf
  rw [cast_cast, cast_eq]
theorem ofBuf_biased (x : main_v46.ty.Contents (Elt F)) : (TRef.of (T := ⟨S50000x64, .f32⟩) main_v46).ofBuf x = x := rfl
theorem toBuf_top (v : (⟨S50000, .f32⟩ : BufTy).Contents (Elt F)) : (TRef.of (T := ⟨S50000, .f32⟩) main_call1_v2).toBuf v = v := rfl

theorem top_part : after opsTop U (Proc.devRef .tc main_call1_v2) = Tail.top (F := F) (U (Proc.devRef .tc main_v46)) := by
  dsimp only [opsTop]; after_results
  unfold Tail.top
  rw [toBuf_top]
  simp only [ofBuf_toBuf]
  rw [ofBuf_biased]
theorem top_keep : after opsTop U (Proc.devRef .tc main_v46) = U (Proc.devRef .tc main_v46) := by
  dsimp only [opsTop]; after_results <;> rfl
theorem shift_part : after opsShift U (Proc.devRef .tc main_call1_v5)
    = subf (U (Proc.devRef .tc main_v46) : (⟨S50000x64, .f32⟩ : BufTy).Contents (Elt F))
        (broadcastInDim S50000x64 ![0, 1] bcast_S50000x1_S50000x64_0_1 (broadcastInDim S50000x1 ![0] bcast_S50000_S50000x1_0
          (U (Proc.devRef .tc main_call1_v2) : (⟨S50000, .f32⟩ : BufTy).Contents (Elt F)))) := by
  dsimp only [opsShift]; after_results <;> rfl
theorem log_part : after opsLog U (Proc.devRef .tc main_v47)
    = subf (U (Proc.devRef .tc main_call1_v5) : (⟨S50000x64, .f32⟩ : BufTy).Contents (Elt F))
        (broadcastInDim S50000x64 ![0, 1] bcast_S50000x1_S50000x64_0_1 (Host.log (broadcastInDim S50000x1 ![0] bcast_S50000_S50000x1_0
          (Host.reduceAdd (Host.exp (U (Proc.devRef .tc main_call1_v5) : (⟨S50000x64, .f32⟩ : BufTy).Contents (Elt F))) (constant S_ .f32 0x00000000#32) reducesTo_S50000x64_S50000_d1 h_S_)))) := by
  dsimp only [opsLog]; after_results <;> rfl

end Parts

/-- The last stretch, from any contents: the log-softmax of the biased propagated features. -/
theorem tail_result (U : Valuation τ sig (Elt F)) :
    after opsTail U (Proc.devRef .tc main_v47)
      = Tail.lsm (F := F) (Tail.biased (U (Proc.devRef .tc main_v43)) (U (Proc.devRef .tc main_arg3))) := by
  rw [tail_split, after_append, after_append, after_append, log_part, shift_part, top_part, top_keep, bias_part]
  rfl

/-- The first stretch: the product, and the edge list and the bias untouched. -/
theorem dot_result (U : Valuation τ sig (Elt F)) :
    after opsDot U (Proc.devRef .tc main_v0)
      = Host.dotGeneral dot_S50000x128_S128x64_S50000x64_1_0_0_1_n_n none (U (Proc.devRef .tc main_arg0)) (U (Proc.devRef .tc main_arg2)) := by
  after_results <;> rfl
theorem dot_edges (U : Valuation τ sig (Elt F)) : after opsDot U (Proc.devRef .tc main_arg1) = U (Proc.devRef .tc main_arg1) := by
  after_results <;> rfl
theorem dot_bias (U : Valuation τ sig (Elt F)) : after opsDot U (Proc.devRef .tc main_arg3) = U (Proc.devRef .tc main_arg3) := by
  after_results <;> rfl

/-- THE RESULT BUFFER after the run: log-softmax of (propagation of the product along the edges, plus the bias). -/
theorem result (m : (ℓ : Loc nD τ sig) → Buf (Elt F) ℓ) (c : Dev nD) :
    after ops (launchContents m c) (Proc.devRef .tc main_v47)
      = Tail.lsm (F := F) (Tail.biased
          (Mid.mid (Host.dotGeneral dot_S50000x128_S128x64_S50000x64_1_0_0_1_n_n none (m ((c.tc : Thread nD τ).loc main_arg0)) (m ((c.tc : Thread nD τ).loc main_arg2)))
            (m ((c.tc : Thread nD τ).loc main_arg1)))
          (m ((c.tc : Thread nD τ).loc main_arg3))) := by
  rw [ops_split, after_append, after_append, after_append, after_append, tail_result, Stages.propagation, Stages.bias_kept,
    dot_result, dot_edges, dot_bias]

set_option maxHeartbeats 4000000 in
/-- The arguments end as launched. -/
theorem kept (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3) :=
  ⟨by after_results_simp <;> rfl, by after_results_simp <;> rfl, by after_results_simp <;> rfl, by after_results_simp <;> rfl⟩

end Cert.ReferenceIdeal.Eval

end
-- ==== Proof.HostSoftmax.lean ====
/-
  The reference's last stretch read at an entry: it is `biasLsm`.

  At (r, s): the bias spread over the rows reads the bias at s; a row's maximum by the host's reduce is the maximum of −∞ and
  the row's 64 entries, and the further maximum with −∞ is absorbed; a [50000] vector made a column and spread over the lanes
  reads the vector at r; the host's row sum is 0 plus the sum of the row's 64 entries; exponential and logarithm are the same
  functions of an extended real whichever unit computes them. So the result at (r, s) is `rowLsm` of the biased row r at s.
-/
import proofs.«141630_j16724602651053_1_alg».proof.Proof.TailR
import proofs.«141630_j16724602651053_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.TailValue

open Cert.ReferenceIdeal Cert.ReferenceIdeal.Gen Idealize.ShloMosaic Idealize.ShloMosaic.ValueIdx Cert.Gcn

/-- A column [50000, 1] spread over the 64 lanes reads, at (r, s), the column at (r, 0). -/
theorem lanes_apply {α : Type} (v : S50000x1.Idx → α) (r : Fin 50000) (s : Fin 64) :
    broadcastInDim S50000x64 ![0, 1] bcast_S50000x1_S50000x64_0_1 v (ix2 r s) = v (ix2 r (0 : Fin 1)) :=
  broadcastInDim_apply _ bcast_S50000x1_S50000x64_0_1 v (ix2 r s) (ix2 r (0 : Fin 1)) (fun a => by
    match a with
    | ⟨0, _⟩ => show r.val = if (50000 : Nat) = 1 then 0 else r.val; rw [if_neg (by decide)]
    | ⟨1, _⟩ => show 0 = if (1 : Nat) = 1 then 0 else s.val; rw [if_pos rfl])

/-- A [50000] vector made a column reads, at (r, 0), the vector at r. -/
theorem column_apply {α : Type} (w : S50000.Idx → α) (r : Fin 50000) :
    broadcastInDim S50000x1 ![0] bcast_S50000_S50000x1_0 w (ix2 r (0 : Fin 1)) = w (ix1 r) :=
  broadcastInDim_apply _ bcast_S50000_S50000x1_0 w (ix2 r (0 : Fin 1)) (ix1 r) (fun a => by
    match a with
    | ⟨0, _⟩ => show r.val = if (50000 : Nat) = 1 then 0 else r.val; rw [if_neg (by decide)])

/-- A [50000] vector made a column and spread over the 64 lanes reads, at (r, s), the vector at r. -/
theorem spread_apply {α : Type} (w : S50000.Idx → α) (r : Fin 50000) (s : Fin 64) :
    broadcastInDim S50000x64 ![0, 1] bcast_S50000x1_S50000x64_0_1 (broadcastInDim S50000x1 ![0] bcast_S50000_S50000x1_0 w) (ix2 r s)
      = w (ix1 r) :=
  (lanes_apply _ r s).trans (column_apply w r)

/-- The bias added to every row, at (r, k): the feature plus the bias at k. -/
theorem biased_apply (p : FVec Ideal S50000x64 .f32) (b : FVec Ideal S64 .f32) (r : Fin 50000) (k : Fin 64) :
    Tail.biased (F := Ideal) p b (ix2 r k) = p (ix2 r k) + b (ix1 k) := by
  unfold Tail.biased
  rw [addf_apply]
  refine congrArg (p (ix2 r k) + ·) ?_
  refine (broadcastInDim_apply _ bcast_S1x64_S50000x64_0_1 _ (ix2 r k) (ix2 (0 : Fin 1) k) (fun a => ?_)).trans
    (broadcastInDim_apply _ bcast_S64_S1x64_1 b (ix2 (0 : Fin 1) k) (ix1 k) (fun a => ?_))
  · match a with
    | ⟨0, _⟩ => show 0 = if (1 : Nat) = 1 then 0 else r.val; rw [if_pos rfl]
    | ⟨1, _⟩ => show k.val = if (64 : Nat) = 1 then 0 else k.val; rw [if_neg (by decide)]
  · match a with
    | ⟨0, _⟩ => show k.val = if (64 : Nat) = 1 then 0 else k.val; rw [if_neg (by decide)]

/-- A row's maximum as the reference takes it: `rowTop` of the row. -/
theorem top_apply (u : FVec Ideal S50000x64 .f32) (r : Fin 50000) :
    Tail.top (F := Ideal) u (ix1 r) = rowTop (fun k => u (ix2 r k)) := by
  unfold Tail.top
  rw [maximumf_apply, Host.reduce_eq_fold_single FloatOps.maximumf u _ reducesTo_S50000x64_S50000_d1 (by decide) h_S_ (ix1 r),
    broadcastInDim_apply _ bcast_S_S50000 _ (ix1 r) ix0 (fun a => a.elim0)]
  refine Eq.trans ?_ (max_bottom_rowTop (fun k => u (ix2 r k)))
  refine congrArg (max bottom) ?_
  unfold rowTop
  refine congrArg (fun f => Finset.fold max bottom f (Finset.univ : Finset (Fin 64))) (funext fun k => congrArg u (funext fun a => Fin.ext ?_))
  match a with
  | ⟨0, _⟩ => rfl
  | ⟨1, _⟩ => rfl

/-- The shifted rows at (r, s). -/
theorem shifted_apply (u : FVec Ideal S50000x64 .f32) (r : Fin 50000) (s : Fin 64) :
    Tail.shifted (F := Ideal) u (ix2 r s) = u (ix2 r s) - rowTop (fun k => u (ix2 r k)) := by
  unfold Tail.shifted
  rw [subf_apply, spread_apply, top_apply]

/-- The host's sum over the lanes, from zero, at row r. -/
theorem rowSum_apply (y : FVec Ideal S50000x64 .f32) (r : Fin 50000) :
    Host.reduceAdd (F := Ideal) y (constant S_ .f32 0x00000000#32) reducesTo_S50000x64_S50000_d1 h_S_ (ix1 r) = ∑ k : Fin 64, y (ix2 r k) := by
  simp only [Host.reduceAdd, Ideal.hostReduceAdd_def]
  rw [Ideal.hostReduceAdd_single reducesTo_S50000x64_S50000_d1 (by decide)]
  show Ideal.ofBits .f32 0x00000000#32 + _ = _
  rw [Ideal.ofBits_zero_f32, zero_add]
  exact Finset.sum_congr rfl fun k _ => congrArg y (funext fun a => Fin.ext (by match a with | ⟨0, _⟩ => rfl | ⟨1, _⟩ => rfl))

/-- The host's logarithm and exponential act entry by entry, as the functions of an extended real. -/
theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The row-wise log-softmax at (r, s). -/
theorem lsm_apply (u : FVec Ideal S50000x64 .f32) (r : Fin 50000) (s : Fin 64) :
    Tail.lsm (F := Ideal) u (ix2 r s) = rowLsm (fun k => u (ix2 r k)) s := by
  unfold Tail.lsm
  rw [subf_apply, shifted_apply]
  unfold rowLsm
  refine congrArg (u (ix2 r s) - rowTop (fun k => u (ix2 r k)) - ·) ?_
  rw [lanes_apply, hostLog_apply, column_apply, rowSum_apply]
  refine congrArg Ideal.log (Finset.sum_congr rfl fun k _ => ?_)
  rw [hostExp_apply, shifted_apply]

/-- THE LAST STRETCH IS `biasLsm`: of the features and of the bias read lane by lane. -/
theorem tail_eq (p : FVec Ideal S50000x64 .f32) (b : FVec Ideal S64 .f32) :
    Tail.lsm (F := Ideal) (Tail.biased p b) = biasLsm p (fun k => b (ix1 k)) := by
  funext i
  obtain ⟨r, s, rfl⟩ : ∃ (r : Fin 50000) (s : Fin 64), i = ix2 r s := ⟨i 0, i 1, eq_ix2 i⟩
  rw [lsm_apply, biasLsm_ix2]
  exact congrArg (fun u => rowLsm u s) (funext fun k => biased_apply p b r k)

end Cert.ReferenceIdeal.TailValue

end
-- ==== Proof.HostDot.lean ====
/-
  The reference's matrix product read at an entry: `matProd`.

  The host's dot_general contracts one axis of extent 128; at (r, s) it is the sum over the contracted coordinate k of the left
  operand at (r, k) times the right at (k, s), the contraction index re-indexed by its one coordinate.
-/
import proofs.«141630_j16724602651053_1_alg».proof.ReferenceIdeal
import proofs.«141630_j16724602651053_1_alg».proof.Proof.Gen.ReferenceIdeal
import proofs.«141630_j16724602651053_1_alg».proof.Proof.Spec
import Idealize.ShloMosaic.Lib.ValueIdx
import Idealize.ShloMosaic.PureOps.Ideal.Laws

noncomputable section

namespace Cert.ReferenceIdeal.DotValue

open Cert.ReferenceIdeal Cert.ReferenceIdeal.Gen Idealize.ShloMosaic Idealize.ShloMosaic.ValueIdx Cert.Gcn

theorem lhs_row (i : S50000x64.Idx) (r : dot_S50000x128_S128x64_S50000x64_1_0_0_1_n_n.contr.Idx) : (dot_S50000x128_S128x64_S50000x64_1_0_0_1_n_n.lhsIdx i r 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem rhs_col (i : S50000x64.Idx) (r : dot_S50000x128_S128x64_S50000x64_1_0_0_1_n_n.contr.Idx) : (dot_S50000x128_S128x64_S50000x64_1_0_0_1_n_n.rhsIdx i r 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- THE PRODUCT: the host's dot_general of the two arrays is `matProd`. -/
theorem dot_eq (x : FVec Ideal S50000x128 .f32) (w : FVec Ideal S128x64 .f32) :
    Host.dotGeneral (F := Ideal) dot_S50000x128_S128x64_S50000x64_1_0_0_1_n_n none x w = matProd x w := by
  funext i
  obtain ⟨p, q, rfl⟩ : ∃ (p : Fin 50000) (q : Fin 64), i = ix2 p q := ⟨i 0, i 1, eq_ix2 i⟩
  rw [matProd_ix2]
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 p q) ((contrEquiv1 dot_S50000x128_S128x64_S50000x64_1_0_0_1_n_n 128 rfl rfl).symm k) = ix2 p k := funext fun a => Fin.ext (by
    match a with
    | ⟨0, _⟩ => exact lhs_row _ _
    | ⟨1, _⟩ => exact (dot_S50000x128_S128x64_S50000x64_1_0_0_1_n_n.lhsIdx_val_of_single rfl (ix2 p q) _).trans hk)
  have er : dot_S50000x128_S128x64_S50000x64_1_0_0_1_n_n.rhsIdx (ix2 p q) ((contrEquiv1 dot_S50000x128_S128x64_S50000x64_1_0_0_1_n_n 128 rfl rfl).symm k) = ix2 k q := funext fun a => Fin.ext (by
    match a with
    | ⟨0, _⟩ => exact (dot_S50000x128_S128x64_S50000x64_1_0_0_1_n_n.rhsIdx_val_of_single rfl (ix2 p q) _).trans hk
    | ⟨1, _⟩ => exact rhs_col _ _)
  rw [el, er]

end Cert.ReferenceIdeal.DotValue

end
-- ==== Proof.MidSame.lean ====
/-
  The propagation is ONE function: written in the kernel program's vocabulary or in the reference's, `mid` is the same
  function of the features and the edge list. The two vocabularies name the same literal shapes and the same dimension
  records, so the two definitions unfold to one term, stage by stage.
-/
import proofs.«141630_j16724602651053_1_alg».proof.Proof.MidK
import proofs.«141630_j16724602651053_1_alg».proof.Proof.MidR

noncomputable section

namespace Cert.Gcn

open Idealize.ShloMosaic

variable {F : FTy → Type} [FloatOps F]

theorem srcs_same (e : (⟨Cert.KernelIdeal.S2x800000, .i32⟩ : BufTy).Contents (Elt F)) :
    Cert.KernelIdeal.Mid.srcs (F := F) e = Cert.ReferenceIdeal.Mid.srcs (F := F) e := rfl
theorem dsts_same (e : (⟨Cert.KernelIdeal.S2x800000, .i32⟩ : BufTy).Contents (Elt F)) :
    Cert.KernelIdeal.Mid.dsts (F := F) e = Cert.ReferenceIdeal.Mid.dsts (F := F) e := rfl
theorem wrap_same (v : (⟨Cert.KernelIdeal.S850000, .i32⟩ : BufTy).Contents (Elt F)) :
    Cert.KernelIdeal.Mid.wrap (F := F) v = Cert.ReferenceIdeal.Mid.wrap (F := F) v := rfl
theorem deg_same (e : (⟨Cert.KernelIdeal.S2x800000, .i32⟩ : BufTy).Contents (Elt F)) :
    Cert.KernelIdeal.Mid.deg (F := F) e = Cert.ReferenceIdeal.Mid.deg (F := F) e := by
  unfold Cert.KernelIdeal.Mid.deg Cert.ReferenceIdeal.Mid.deg
  rw [dsts_same] <;> rfl
theorem dinv_same (e : (⟨Cert.KernelIdeal.S2x800000, .i32⟩ : BufTy).Contents (Elt F)) :
    Cert.KernelIdeal.Mid.dinv (F := F) e = Cert.ReferenceIdeal.Mid.dinv (F := F) e := by
  unfold Cert.KernelIdeal.Mid.dinv Cert.ReferenceIdeal.Mid.dinv
  rw [deg_same] <;> rfl
theorem norm_same (e : (⟨Cert.KernelIdeal.S2x800000, .i32⟩ : BufTy).Contents (Elt F)) :
    Cert.KernelIdeal.Mid.norm (F := F) e = Cert.ReferenceIdeal.Mid.norm (F := F) e := by
  unfold Cert.KernelIdeal.Mid.norm Cert.ReferenceIdeal.Mid.norm
  rw [dinv_same, srcs_same, dsts_same, wrap_same, wrap_same] <;> rfl

/-- The two spellings of the propagation are one function. -/
theorem mid_same (h : (⟨Cert.KernelIdeal.S50000x64, .f32⟩ : BufTy).Contents (Elt F))
    (e : (⟨Cert.KernelIdeal.S2x800000, .i32⟩ : BufTy).Contents (Elt F)) :
    Cert.KernelIdeal.Mid.mid (F := F) h e = Cert.ReferenceIdeal.Mid.mid (F := F) h e := by
  unfold Cert.KernelIdeal.Mid.mid Cert.ReferenceIdeal.Mid.mid
  rw [norm_same, srcs_same, dsts_same, wrap_same] <;> rfl

end Cert.Gcn

end
-- ==== Proof.lean ====
/-
  The certificate of a graph-convolution layer: `log_softmax(propagate(x · W) + b)` computed by two kernels with host
  operations between them, against the same layer written as plain host operations.

  Both programs, read at the extended reals, compute ONE function of the four arguments:
    biasLsm (mid (matProd x W) e) b
  — the product of the features and the weight (`matProd`), its propagation along the edge list with self loops and
  symmetric degree scaling (`mid`, the same host operations in both programs, never opened), the bias added to every row and
  the row-wise log-softmax (`biasLsm`).
  The kernel side: the first kernel's blocks of rows tile the product; the host operations between the kernels are `mid` of it;
  the second kernel's blocks tile `biasLsm`, every step of its body being local to a row. The reference side: the fold of its
  operations is the same composition, its row maximum taken once more against −∞ (absorbed) and its row sum started from 0.
  A change of float format is the identity on extended reals, and sums and maxima over a row do not depend on their order, so
  no law needs the inputs finite: the precondition is not opened. The ideal pass rewrote nothing: `preserves` is `True`.
-/
import proofs.«141630_j16724602651053_1_alg».proof.Defs
import proofs.«141630_j16724602651053_1_alg».proof.Proof.Gen.Kernel
import proofs.«141630_j16724602651053_1_alg».proof.Proof.Gen.Kernel.Skeleton
import proofs.«141630_j16724602651053_1_alg».proof.Proof.Gen.Kernel.Launch
import proofs.«141630_j16724602651053_1_alg».proof.Proof.Gen.Kernel.Points
import proofs.«141630_j16724602651053_1_alg».proof.Proof.Gen.Kernel.Frame
import proofs.«141630_j16724602651053_1_alg».proof.Proof.Gen.KernelIdeal
import proofs.«141630_j16724602651053_1_alg».proof.Proof.Gen.KernelIdeal.Skeleton
import proofs.«141630_j16724602651053_1_alg».proof.Proof.Gen.KernelIdeal.Launch
import proofs.«141630_j16724602651053_1_alg».proof.Proof.Gen.KernelIdeal.Points
import proofs.«141630_j16724602651053_1_alg».proof.Proof.Gen.KernelIdeal.Frame
import proofs.«141630_j16724602651053_1_alg».proof.Proof.Gen.ReferenceIdeal
import proofs.«141630_j16724602651053_1_alg».proof.Proof.Gen.Pre_finite_inputs
import proofs.«141630_j16724602651053_1_alg».proof.Proof.KernelRun
import proofs.«141630_j16724602651053_1_alg».proof.Proof.KernelValue
import proofs.«141630_j16724602651053_1_alg».proof.Proof.RefOps
import proofs.«141630_j16724602651053_1_alg».proof.Proof.RefEval
import proofs.«141630_j16724602651053_1_alg».proof.Proof.HostSoftmax
import proofs.«141630_j16724602651053_1_alg».proof.Proof.HostDot
import proofs.«141630_j16724602651053_1_alg».proof.Proof.MidSame
import Idealize.ShloMosaic.Adequacy
import Idealize.ShloMosaic.Init

noncomputable section

namespace Cert.Proof

open Idealize.ShloMosaic Idealize.ShloMosaic.TcCoe Idealize.ShloMosaic.ValueIdx Idealize.SL.Sem Cert.Gcn

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: no operation writes one. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.Eval.kept m c).1,
       (h c Cert.ReferenceIdeal.main_arg1).trans (Cert.ReferenceIdeal.Eval.kept m c).2.1,
       (h c Cert.ReferenceIdeal.main_arg2).trans (Cert.ReferenceIdeal.Eval.kept m c).2.2.1,
       (h c Cert.ReferenceIdeal.main_arg3).trans (Cert.ReferenceIdeal.Eval.kept m c).2.2.2⟩)
    (Cert.ReferenceIdeal.Ops.run (F := Ideal) m ρ)

/-- The ideal pass rewrote no operation. -/
theorem preserves : Cert.preserves_Kernel_KernelIdeal := trivial

/-- The reference's result, as the common function of its arguments. -/
theorem reference_value (m : (ℓ : Loc Cert.ReferenceIdeal.nD Cert.ReferenceIdeal.τ Cert.ReferenceIdeal.sig) → Buf (Elt Ideal) ℓ)
    (c : Dev Cert.ReferenceIdeal.nD) :
    StableHlo.after Cert.ReferenceIdeal.Ops.ops (StableHlo.launchContents m c) (Proc.devRef .tc Cert.ReferenceIdeal.main_v47)
      = biasLsm (Cert.ReferenceIdeal.Mid.mid (F := Ideal)
            (matProd (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2)))
            (m ((c.tc : Thread Cert.ReferenceIdeal.nD Cert.ReferenceIdeal.τ).loc Cert.ReferenceIdeal.main_arg1)))
          (fun k => (m ((c.tc : Thread Cert.ReferenceIdeal.nD Cert.ReferenceIdeal.τ).loc Cert.ReferenceIdeal.main_arg3) : Cert.ReferenceIdeal.S64.Idx → EReal) (ix1 k)) := by
  rw [Cert.ReferenceIdeal.Eval.result, Cert.ReferenceIdeal.TailValue.tail_eq, Cert.ReferenceIdeal.DotValue.dot_eq]

/-- From memories agreeing on the arguments both idealized programs end with the same result array: the common function
    of the arguments, the kernel's read off its two regions and the host operations between them, the reference's off the fold
    of its operations. -/
theorem algebraic : Cert.algebraic_KernelIdeal_ReferenceIdeal := by
  intro m ρ m' ρ' _ hagree
  refine ⟨fun c => biasLsm (Cert.KernelIdeal.Mid.mid (F := Ideal)
      (matProd (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)))
      (fun k => (m ((c.tc : Thread Cert.KernelIdeal.nD Cert.KernelIdeal.τ).loc Cert.KernelIdeal.main_arg3) : Cert.KernelIdeal.S64.Idx → EReal) (ix1 k)),
    ?_, ?_⟩
  · exact (θ_run Cert.KernelIdeal.defs _ _).mono (fun _ h c => ⟨(h c).1.trans (Cert.KernelIdeal.Whole.value m ρ c), (h c).2⟩)
      (Cert.KernelIdeal.Whole.run_result (F := Ideal) m ρ)
  · refine (θ_run Cert.ReferenceIdeal.defs _ _).mono (fun _ h c => ⟨?_,
        (h c Cert.ReferenceIdeal.main_arg0).trans (Cert.ReferenceIdeal.Eval.kept m' c).1,
        (h c Cert.ReferenceIdeal.main_arg1).trans (Cert.ReferenceIdeal.Eval.kept m' c).2.1,
        (h c Cert.ReferenceIdeal.main_arg2).trans (Cert.ReferenceIdeal.Eval.kept m' c).2.2.1,
        (h c Cert.ReferenceIdeal.main_arg3).trans (Cert.ReferenceIdeal.Eval.kept m' c).2.2.2⟩)
      (Cert.ReferenceIdeal.Ops.run (F := Ideal) m' ρ')
    rw [h c Cert.ReferenceIdeal.main_v47, reference_value m' c, (hagree c).1, (hagree c).2.1, (hagree c).2.2.1, (hagree c).2.2.2,
      ← mid_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
